-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x128 : Shape := ⟨3, ![4, 2048, 128]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel

variable [Facts]

def fn {F : FTy → Type} [FloatOps F] (main_arg0 : FVec F S4x2048x128 .f32) (main_arg1 : FVec F S4x2048x128 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  main_v8
-- ==== Kernel.lean ====
abbrev S4x2048x128 : Shape := ⟨3, ![4, 2048, 128]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S1x256x128 : Shape := ⟨3, ![1, 256, 128]⟩
abbrev S1x2048x128 : Shape := ⟨3, ![1, 2048, 128]⟩
abbrev S1x256x1 : Shape := ⟨3, ![1, 256, 1]⟩
abbrev S1x1x2048 : Shape := ⟨3, ![1, 1, 2048]⟩
abbrev S1x256x2048 : Shape := ⟨3, ![1, 256, 2048]⟩
abbrev S256x128 : Shape := ⟨2, ![256, 128]⟩
abbrev S2048x128 : Shape := ⟨2, ![2048, 128]⟩
abbrev S256x1 : Shape := ⟨2, ![256, 1]⟩
abbrev S1x2048 : Shape := ⟨2, ![1, 2048]⟩
abbrev S128x2048 : Shape := ⟨2, ![128, 2048]⟩
abbrev S256x2048 : Shape := ⟨2, ![256, 2048]⟩
abbrev S4x2048x2048x1 : Shape := ⟨4, ![4, 2048, 2048, 1]⟩
abbrev S4x2048x2048x2 : Shape := ⟨4, ![4, 2048, 2048, 2]⟩

abbrev nBuf : Space → Nat
  | .hbm => 15
  | .vmem => 12
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S4x2048x128, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S4x2048x128, .f32⟩
  | .hbm, ⟨7, _⟩ => ⟨S_, .f32⟩
  | .hbm, ⟨8, _⟩ => ⟨S4x2048, .f32⟩
  | .hbm, ⟨9, _⟩ => ⟨S4x1x2048, .f32⟩
  | .hbm, ⟨10, _⟩ => ⟨S4x2048x2048, .f32⟩
  | .hbm, ⟨11, _⟩ => ⟨S4x2048x2048, .f32⟩
  | .hbm, ⟨12, _⟩ => ⟨S4x2048x2048x1, .f32⟩
  | .hbm, ⟨13, _⟩ => ⟨S4x2048x2048x1, .f32⟩
  | .hbm, ⟨14, _⟩ => ⟨S4x2048x2048x2, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x256x1, .f32⟩
  | .local _ .vmem, ⟨5, _⟩ => ⟨S1x256x1, .f32⟩
  | .local _ .vmem, ⟨6, _⟩ => ⟨S1x1x2048, .f32⟩
  | .local _ .vmem, ⟨7, _⟩ => ⟨S1x1x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S4x2048x128_S4x2048_d2 : S4x2048x128.ReducesTo [2] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  bitsLt_bf16_f32 : FTy.bits .bf16 < FTy.bits .f32
  transposes_S2048x128_p1_0_S128x2048 : S2048x128.Transposes [1, 0] S128x2048
  broadcasts_S256x1_S256x2048 : S256x1.Broadcasts S256x2048
  broadcasts_S1x2048_S256x2048 : S1x2048.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  bcast_S4x2048x2048_S4x2048x2048x1_0_1_2 : S4x2048x2048.BroadcastsInDim S4x2048x2048x1 (![0, 1, 2] : Fin 3 → Fin S4x2048x2048x1.rank)
  concatenates_S4x2048x2048x1_S4x2048x2048x1_S4x2048x2048x2_d3 : Shape.Concatenates [S4x2048x2048x1, S4x2048x2048x1] S4x2048x2048x2 3
  dot_S256x128_S128x2048_S256x2048_1_0_0_1_n_n_wf : DotDims.WF S256x128 S128x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S4x2048x128.size a
  hwx0_0 : ∀ i : grid0.Coords, EltTy.bits .f32 = 32 ∨ (Rect.block (s := S4x2048x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S4x2048x128.size a
  hwx0_1 : ∀ i : grid0.Coords, EltTy.bits .f32 = 32 ∨ (Rect.block (s := S4x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S4x2048x1.size a
  hwx0_2 : ∀ i : grid0.Coords, EltTy.bits .f32 = 32 ∨ (Rect.block (s := S4x2048x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x2048.size a
  hwx0_3 : ∀ i : grid0.Coords, EltTy.bits .f32 = 32 ∨ (Rect.block (s := S4x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S4x2048x2048.size a
  hwx0_4 : ∀ i : grid0.Coords, EltTy.bits .f32 = 32 ∨ (Rect.block (s := S4x2048x2048) S1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S4x2048x2048.size a
  hwx0_5 : ∀ i : grid0.Coords, EltTy.bits .f32 = 32 ∨ (Rect.block (s := S4x2048x2048) S1x256x2048.size (cc0_transform_5 i) (hinb0_5 i)).WholeWords (EltTy.packing .f32)

variable [Facts₀]

def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x128 : Shape := ⟨3, ![4, 2048, 128]⟩
abbrev S_ : Shape := ⟨0, ![]⟩
abbrev S4x2048 : Shape := ⟨2, ![4, 2048]⟩
abbrev S4x2048x1 : Shape := ⟨3, ![4, 2048, 1]⟩
abbrev S4x2048x2048 : Shape := ⟨3, ![4, 2048, 2048]⟩
abbrev S4x1x2048 : Shape := ⟨3, ![4, 1, 2048]⟩
abbrev S4x2048x2048x1 : Shape := ⟨4, ![4, 2048, 2048, 1]⟩
abbrev S4x2048x2048x2 : Shape := ⟨4, ![4, 2048, 2048, 2]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S4x2048x128, .f32⟩
  | .hbm, ⟨3, _⟩ => ⟨S_, .f32⟩
  | .hbm, ⟨4, _⟩ => ⟨S4x2048, .f32⟩
  | .hbm, ⟨5, _⟩ => ⟨S4x2048x128, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048x1, .f32⟩
  | .hbm, ⟨13, _⟩ => ⟨S4x2048x128, .f32⟩
  | .hbm, ⟨14, _⟩ => ⟨S4x2048x128, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x128, .f32⟩
  | .hbm, ⟨21, _⟩ => ⟨S4x2048x128, .f32⟩
  | .hbm, ⟨22, _⟩ => ⟨S4x2048x2048, .f32⟩
  | .hbm, ⟨23, _⟩ => ⟨S4x2048x2048, .f32⟩
  | .hbm, ⟨24, _⟩ => ⟨S4x2048x1, .f32⟩
  | .hbm, ⟨25, _⟩ => ⟨S4x1x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x2048x2048, .f32⟩
  | .hbm, ⟨42, _⟩ => ⟨S4x2048x2048, .f32⟩
  | .hbm, ⟨43, _⟩ => ⟨S4x2048x2048x1, .f32⟩
  | .hbm, ⟨44, _⟩ => ⟨S4x2048x2048x1, .f32⟩
  | .hbm, ⟨45, _⟩ => ⟨S4x2048x2048x2, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  reducesTo_S4x2048x128_S4x2048_d2 : S4x2048x128.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x128_0_1_2 : S4x2048x1.BroadcastsInDim S4x2048x128 (![0, 1, 2] : Fin 3 → Fin S4x2048x128.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  bcast_S4x2048x2048_S4x2048x2048x1_0_1_2 : S4x2048x2048.BroadcastsInDim S4x2048x2048x1 (![0, 1, 2] : Fin 3 → Fin S4x2048x2048x1.rank)
  concatenates_S4x2048x2048x1_S4x2048x2048x1_S4x2048x2048x2_d3 : Shape.Concatenates [S4x2048x2048x1, S4x2048x2048x1] S4x2048x2048x2 3
  dot_S4x2048x128_S4x2048x128_S4x2048x2048_2_2_1_1_0_0_wf : DotDims.WF S4x2048x128 S4x2048x128 S4x2048x2048 [2] [2] [1] [1] [0] [0]

variable [Facts₀]

def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf

class Facts : Prop extends Facts₀ where

variable [Facts]
-- ==== Proof.SimSpec.lean ====
/-
  The two results as functions of the two argument arrays, entry by entry, and the one law that joins the two programs.
  For a batch b, a source row n and a target row m (each row has 128 entries):
    sumSq x b r       = 0 + Σ_k x(b, r, k)²
    rowDot s t b n m  = Σ_k s(b, n, k) · t(b, m, k)
    rowNorm x b r     = max(√(sumSq x b r), ε)          (ε the float literal both programs carry, 9223372 · 2⁻⁶³ > 0)
    cosAt             = rowDot / (rowNorm s · rowNorm t)                         (the kernel: ONE product, divided once)
    cosNormalizedAt   = Σ_k (s(b, n, k) / rowNorm s) · (t(b, m, k) / rowNorm t)   (the reference: rows normalized first)
    distAt            = 1 / (1 + √(max(sumSq s + sumSq t − 2 · rowDot, 0)))       (both programs, the same expression)
  The law: when every entry of both arrays is a real number, each sum of squares is a nonnegative real, its root a real,
  each clamped norm a POSITIVE real (it is at least ε > 0), so dividing by it is multiplying by a real reciprocal, and
  the reciprocals move out of the finite sum: cosNormalizedAt = cosAt. On the extended reals this needs the finiteness:
  with an infinite entry a clamped norm is +∞, its reciprocal 0, and a product 0 · ∞ appears.
-/
import Idealize.ShloMosaic.PureOps.Ideal
import Idealize.ShloMosaic.PureOps.Ideal.Laws
import Idealize.ShloMosaic.Lib.ValueIdx

noncomputable section

namespace Cert.Sim

open Idealize.ShloMosaic Idealize.ShloMosaic.ValueIdx

/-- The shape of each argument array: 4 batches of 2048 rows of 128 entries. -/
abbrev Arg : Shape := ⟨3, ![4, 2048, 128]⟩
/-- The shape of each of the two results before they are stacked: 4 batches of 2048 × 2048 entries. -/
abbrev Out : Shape := ⟨3, ![4, 2048, 2048]⟩

/-- The clamp under the norms: the float literal both programs carry. -/
def eps : EReal := Ideal.ofBits .f32 0x2B8CBCCC#32

/-- A row's sum of squares, from the zero the host's sum starts at. -/
def sumSq (x : Arg.Idx → EReal) (b : Fin 4) (r : Fin 2048) : EReal :=
  Ideal.ofBits .f32 0x00000000#32 + ∑ k : Fin 128, x (ix3 b r k) * x (ix3 b r k)

/-- The inner product of source row (b, n) and target row (b, m). -/
def rowDot (s t : Arg.Idx → EReal) (b : Fin 4) (n m : Fin 2048) : EReal :=
  ∑ k : Fin 128, s (ix3 b n k) * t (ix3 b m k)

/-- A row's Euclidean norm, clamped below by ε. -/
def rowNorm (x : Arg.Idx → EReal) (b : Fin 4) (r : Fin 2048) : EReal := max (Ideal.sqrt (sumSq x b r)) eps

/-- The cosine as the kernel takes it: the inner product over the product of the two clamped norms. -/
def cosAt (s t : Arg.Idx → EReal) (b : Fin 4) (n m : Fin 2048) : EReal :=
  Ideal.div (rowDot s t b n m) (rowNorm s b n * rowNorm t b m)

/-- The cosine as the reference takes it: the inner product of the two rows, each divided by its clamped norm first. -/
def cosNormalizedAt (s t : Arg.Idx → EReal) (b : Fin 4) (n m : Fin 2048) : EReal :=
  ∑ k : Fin 128, Ideal.div (s (ix3 b n k)) (rowNorm s b n) * Ideal.div (t (ix3 b m k)) (rowNorm t b m)

/-- The normalized distance: the squared distance from the two sums of squares and the inner product, clamped at 0. -/
def distAt (s t : Arg.Idx → EReal) (b : Fin 4) (n m : Fin 2048) : EReal :=
  Ideal.div (Ideal.ofBits .f32 0x3F800000#32)
    (Ideal.ofBits .f32 0x3F800000#32
      + Ideal.sqrt (max (sumSq s b n + sumSq t b m - Ideal.ofBits .f32 0x40000000#32 * rowDot s t b n m)
          (Ideal.ofBits .f32 0x00000000#32)))

/-- The cosine similarities as one array. -/
def cosine (s t : Arg.Idx → EReal) : Out.Idx → EReal := fun j => cosAt s t (j 0) (j 1) (j 2)
/-- The normalized distances as one array. -/
def distance (s t : Arg.Idx → EReal) : Out.Idx → EReal := fun j => distAt s t (j 0) (j 1) (j 2)

/-- One result with a trailing unit axis, and the two results stacked on that axis. -/
abbrev Out1 : Shape := ⟨4, ![4, 2048, 2048, 1]⟩
abbrev Out2 : Shape := ⟨4, ![4, 2048, 2048, 2]⟩

/-- What both programs do last: give each of the two arrays a trailing unit axis and join them on it, the first array at
    channel 0 and the second at channel 1. Both programs apply exactly this to their two arrays, so it is carried as one
    function and never opened. -/
def stack (hb : Out.BroadcastsInDim Out1 (![0, 1, 2] : Fin 3 → Fin Out1.rank)) (hc : Shape.Concatenates [Out1, Out1] Out2 3)
    (a b : Out.Idx → EReal) : Out2.Idx → EReal :=
  concatenate Out2 3 [⟨Out1, broadcastInDim Out1 ![0, 1, 2] hb a⟩, ⟨Out1, broadcastInDim Out1 ![0, 1, 2] hb b⟩] hc

/-- A host sum over the last axis of the entrywise squares, read at row (b, r), is that row's sum of squares: the
    initial zero plus the sum over the row's 128 entries. -/
theorem rowSums_apply (h' : Arg.ReducesTo [(2 : Fin Arg.rank)] (⟨2, ![4, 2048]⟩ : Shape)) (h0 : 0 < (⟨0, ![]⟩ : Shape).numel)
    (x : Arg.Idx → EReal) (b : Fin 4) (r : Fin 2048) :
    Host.reduceAdd (F := Ideal) (φ := .f32) (mulf (F := Ideal) (φ := .f32) x x)
        (constant (F := Ideal) ⟨0, ![]⟩ .f32 0x00000000#32) h' h0 (ix2 b r)
      = sumSq x b r := by
  simp only [Host.reduceAdd, Ideal.hostReduceAdd_def]
  rw [Ideal.hostReduceAdd_single h' (by decide)]
  unfold sumSq
  refine congrArg₂ (· + ·) rfl (Finset.sum_congr rfl fun k _ => ?_)
  exact congrArg (fun i => x i * x i)
    (funext fun a => Fin.ext (by match a with | ⟨0, _⟩ => rfl | ⟨1, _⟩ => rfl | ⟨2, _⟩ => rfl))

/-- Every entry is a real number. -/
def RealEntries (x : Arg.Idx → EReal) : Prop := ∀ i, ∃ r : ℝ, x i = (r : EReal)

/-! ## The law -/

/-- A finite sum of reals, read in the extended reals, is the sum of the readings. -/
theorem coe_sum {ι : Type*} (S : Finset ι) (f : ι → ℝ) : ∑ k ∈ S, ((f k : ℝ) : EReal) = ((∑ k ∈ S, f k : ℝ) : EReal) := by
  classical
  refine Finset.induction_on S (by simp) fun a S ha ih => ?_
  rw [Finset.sum_insert ha, Finset.sum_insert ha, ih, EReal.coe_add]

/-- The clamp is a positive real: the literal's sign is plus and it is no infinity. -/
theorem eps_pos : ∃ ε : ℝ, 0 < ε ∧ eps = (ε : EReal) := by
  refine ⟨9223372 / 2 ^ 63, by positivity, ?_⟩
  unfold eps
  simp [Ideal.ofBits, Ideal.ieee, -EReal.coe_mul]
  norm_num

/-- With real entries a row's sum of squares is a nonnegative real. -/
theorem sumSq_real {x : Arg.Idx → EReal} (hx : RealEntries x) (b : Fin 4) (r : Fin 2048) :
    ∃ q : ℝ, 0 ≤ q ∧ sumSq x b r = (q : EReal) := by
  choose x' hx' using hx
  refine ⟨∑ k : Fin 128, x' (ix3 b r k) * x' (ix3 b r k), Finset.sum_nonneg fun k _ => mul_self_nonneg _, ?_⟩
  unfold sumSq
  rw [Ideal.ofBits_zero_f32, zero_add]
  simp only [hx', ← EReal.coe_mul]
  exact coe_sum _ _

/-- With real entries a row's clamped rowNorm is a positive real. -/
theorem rowNorm_real {x : Arg.Idx → EReal} (hx : RealEntries x) (b : Fin 4) (r : Fin 2048) :
    ∃ ν : ℝ, 0 < ν ∧ rowNorm x b r = (ν : EReal) := by
  obtain ⟨q, hq, eq⟩ := sumSq_real hx b r
  obtain ⟨ε, hε, eε⟩ := eps_pos
  refine ⟨max (Real.sqrt q) ε, lt_max_of_lt_right hε, ?_⟩
  unfold rowNorm
  rw [eq, eε, Ideal.sqrt_coe, if_neg (not_lt.mpr hq)]
  exact (EReal.coe_strictMono.monotone.map_max).symm

/-- THE LAW: with real entries, the rowDot product of the two normalized rows is the rows' rowDot product over the product
    of their clamped norms. -/
theorem cosNormalizedAt_eq {s t : Arg.Idx → EReal} (hs : RealEntries s) (ht : RealEntries t) (b : Fin 4) (n m : Fin 2048) :
    cosNormalizedAt s t b n m = cosAt s t b n m := by
  obtain ⟨νs, hνs, es⟩ := rowNorm_real hs b n
  obtain ⟨νt, hνt, et⟩ := rowNorm_real ht b m
  choose s' hs' using hs
  choose t' ht' using ht
  unfold cosNormalizedAt cosAt rowDot
  rw [es, et, ← EReal.coe_mul, Ideal.div_coe (mul_pos hνs hνt).ne']
  simp only [hs', ht', Ideal.div_coe hνs.ne', Ideal.div_coe hνt.ne', ← EReal.coe_mul]
  rw [coe_sum, coe_sum, ← EReal.coe_mul, Finset.sum_mul]
  refine congrArg _ (Finset.sum_congr rfl fun k _ => ?_)
  field_simp

/-- The same for the whole arrays. -/
theorem cosNormalized_eq_cosine {s t : Arg.Idx → EReal} (hs : RealEntries s) (ht : RealEntries t) :
    (fun j : Out.Idx => cosNormalizedAt s t (j 0) (j 1) (j 2)) = cosine s t :=
  funext fun j => cosNormalizedAt_eq hs ht (j 0) (j 1) (j 2)

end Cert.Sim

end
-- ==== Proof.RealInputs.lean ====
/-
  The precondition says every entry of both arguments is a real number.
  It is printed as: the conjunction, over the two arrays, of "every |x| is below the float +∞". At the ideal instance
  |x| is max(x, −x) and the literal is ⊤, so an entry passing the test is neither +∞ nor −∞.
-/
import proofs.«173518_j21199958573323_1_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.Affine

noncomputable section

namespace Cert.Pre_finite_inputs.RealInputs

open Cert.Pre_finite_inputs Idealize.ShloMosaic Idealize.ShloMosaic.ValueIdx

instance : Subsingleton S_.Idx := ⟨fun a b => funext fun d => d.elim0⟩

/-- An extended real whose absolute value is below the float +∞ is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

variable [Facts]

/-- Where the printed precondition is all ones, every entry of both arrays is a real number. -/
theorem real_entries (x0 x1 : FVec Ideal S4x2048x128 .f32) (h : fn (F := Ideal) x0 x1 = fun _ => 1#1) :
    (∀ i, ∃ r : ℝ, x0 i = (r : EReal)) ∧ (∀ i, ∃ r : ℝ, x1 i = (r : EReal)) := by
  have h0 := congrFun h ix0
  dsimp only [fn] at h0
  obtain ⟨ha, hb⟩ := IntOp.andi_eq_one.mp h0
  exact ⟨fun i => real_of_abs_lt_inf _ (Host.reduce_andi_all _ _ _ _ ix0 ha i),
    fun i => real_of_abs_lt_inf _ (Host.reduce_andi_all _ _ _ _ ix0 hb i)⟩

end Cert.Pre_finite_inputs.RealInputs

end
-- ==== Proof.BodyValue.lean ====
/-
  The kernel body's arithmetic, read at one entry (p, q) of a 256 × 2048 output block.
  The body loads a block of source rows (256 × 128), all target rows of the batch (2048 × 128), the source rows'
  sums of squares (256 × 1) and the target rows' sums of squares (1 × 2048), and computes
    dots(p, q)  = Σ_k src(p, k) · tgt(q, k)                       (one matrix product, the target block transposed),
    cos(p, q)   = dots(p, q) / (max(√ssq(p), ε) · max(√tsq(q), ε)),
    dist(p, q)  = 1 / (1 + √(max(ssq(p) + tsq(q) − 2 · dots(p, q), 0))).
  At the ideal instance a change of float format is the identity, so the product of the two narrowed operands is the
  product of the operands themselves.
-/
import proofs.«173518_j21199958573323_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product -/

/-- The product's dimension numbers: rows of the first operand against columns of the second, no batch axis. -/
abbrev D := dot_S256x128_S128x2048_S256x2048_1_0_0_1_n_n

/-- The first operand is read in the output's row, -/
theorem lhs_row (i : S256x2048.Idx) (q : D.contr.Idx) : (D.lhsIdx i q 0).val = (i 0).val := by
  unfold DotDims.lhsIdx
  rw [dif_neg (show ¬(0 : Fin S256x128.rank) ∈ D.lhsBatch by decide), dif_pos (show (0 : Fin S256x128.rank) ∈ D.lhsNonContracting by decide)]
  rfl
/-- at the contracted coordinate; -/
theorem lhs_contr (i : S256x2048.Idx) (q : D.contr.Idx) : (D.lhsIdx i q 1).val = (q ⟨0, by decide⟩).val :=
  D.lhsIdx_val_of_single rfl i q
/-- the second operand at the contracted coordinate, -/
theorem rhs_contr (i : S256x2048.Idx) (q : D.contr.Idx) : (D.rhsIdx i q 0).val = (q ⟨0, by decide⟩).val :=
  D.rhsIdx_val_of_single rfl i q
/-- in the output's column. -/
theorem rhs_col (i : S256x2048.Idx) (q : D.contr.Idx) : (D.rhsIdx i q 1).val = (i 1).val := by
  unfold DotDims.rhsIdx
  rw [dif_neg (show ¬(1 : Fin S128x2048.rank) ∈ D.rhsBatch by decide), dif_pos (show (1 : Fin S128x2048.rank) ∈ D.rhsNonContracting by decide)]
  rfl

/-- The product's entry (p, q) is the inner product of source row `p` and target row `q` of the loaded blocks. -/
theorem dots_apply (x0 : FVec Ideal S1x256x128 .f32) (x1 : FVec Ideal S1x2048x128 .f32) (p : Fin 256) (q : Fin 2048) :
    k0_pay5 (F := Ideal) x0 x1 (ix2 p q) = ∑ k : Fin 128, x0 (ix3 (0 : Fin 1) p k) * x1 (ix3 (0 : Fin 1) q k) := by
  unfold k0_pay5
  refine (Ideal.matmul_constant_zero_apply D none _ _ (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_contr _ _).trans hk)
  have er : D.rhsIdx (ix2 p q) ((contrEquiv1 D 128 rfl rfl).symm k) = ix2 k q := funext fun a => Fin.ext (by
    match a with
    | ⟨0, _⟩ => exact (rhs_contr _ _).trans hk
    | ⟨1, _⟩ => exact rhs_col _ _)
  rw [el, er]
  refine congrArg₂ (· * ·) ?_ ?_
  · exact shapeCast_1ab_ab_apply x0 _ p k
  · exact (transpose_ix2_apply _ _ k q).trans (shapeCast_1ab_ab_apply x1 _ q k)

/-! ## The two stored values -/

/-- A square root taken entry by entry, read at an entry. -/
theorem sqrt_apply {s : Shape} {φ : FTy} (a : FVec Ideal s φ) (i : s.Idx) : sqrt a i = Ideal.sqrt (a i) := rfl

/-- The clamped norm of source row `p`, from the loaded column of sums of squares. -/
theorem srcNorm_apply (x2 : FVec Ideal S1x256x1 .f32) (p : Fin 256) :
    maximumf (sqrt (k0_pay3 (F := Ideal) x2)) (broadcast S256x1 (Scalar.ofBits (F := Ideal) .f32 0x2B8CBCCC#32)) (ix2 p (0 : Fin 1))
      = max (Ideal.sqrt (x2 (ix3 (0 : Fin 1) p (0 : Fin 1)))) (Ideal.ofBits .f32 0x2B8CBCCC#32) := by
  refine (maximumf_apply _ _ _).trans ?_
  refine congrArg₂ max ?_ rfl
  refine (sqrt_apply _ _).trans (congrArg Ideal.sqrt ?_)
  unfold k0_pay3
  exact shapeCast_1ab_ab_apply x2 _ p 0

/-- The clamped norm of target row `q`, from the loaded row of sums of squares. -/
theorem tgtNorm_apply (x3 : FVec Ideal S1x1x2048 .f32) (q : Fin 2048) :
    maximumf (sqrt (k0_pay4 (F := Ideal) x3)) (broadcast S1x2048 (Scalar.ofBits (F := Ideal) .f32 0x2B8CBCCC#32)) (ix2 (0 : Fin 1) q)
      = max (Ideal.sqrt (x3 (ix3 (0 : Fin 1) (0 : Fin 1) q))) (Ideal.ofBits .f32 0x2B8CBCCC#32) := by
  refine (maximumf_apply _ _ _).trans ?_
  refine congrArg₂ max ?_ rfl
  refine (sqrt_apply _ _).trans (congrArg Ideal.sqrt ?_)
  unfold k0_pay4
  exact shapeCast_1ab_ab_apply x3 _ 0 q

/-- The cosine entry: the inner product over the product of the two clamped norms. -/
theorem cos_apply (x0 : FVec Ideal S1x256x128 .f32) (x1 : FVec Ideal S1x2048x128 .f32) (x2 : FVec Ideal S1x256x1 .f32)
    (x3 : FVec Ideal S1x1x2048 .f32) (p : Fin 256) (q : Fin 2048) :
    k0_pay6 (F := Ideal) x0 x1 x2 x3 (ix2 p q)
      = Ideal.div (∑ k : Fin 128, x0 (ix3 (0 : Fin 1) p k) * x1 (ix3 (0 : Fin 1) q k))
          (max (Ideal.sqrt (x2 (ix3 (0 : Fin 1) p (0 : Fin 1)))) (Ideal.ofBits .f32 0x2B8CBCCC#32)
            * max (Ideal.sqrt (x3 (ix3 (0 : Fin 1) (0 : Fin 1) q))) (Ideal.ofBits .f32 0x2B8CBCCC#32)) := by
  unfold k0_pay6
  refine (divf_apply _ _ _).trans ?_
  refine congrArg₂ Ideal.div (dots_apply x0 x1 p q) ?_
  refine (mulf_apply _ _ _).trans ?_
  refine congrArg₂ (· * ·) ?_ ?_
  · exact (broadcastTo_a1_ab_apply _ _ p q).trans (srcNorm_apply x2 p)
  · exact (broadcastTo_1b_ab_apply _ _ p q).trans (tgtNorm_apply x3 q)

/-- The distance entry: one over one plus the root of the clamped squared distance. -/
theorem dist_apply (x0 : FVec Ideal S1x256x128 .f32) (x1 : FVec Ideal S1x2048x128 .f32) (x2 : FVec Ideal S1x256x1 .f32)
    (x3 : FVec Ideal S1x1x2048 .f32) (p : Fin 256) (q : Fin 2048) :
    k0_pay7 (F := Ideal) x0 x1 x2 x3 (ix2 p q)
      = Ideal.div (Ideal.ofBits .f32 0x3F800000#32)
          (Ideal.ofBits .f32 0x3F800000#32
            + Ideal.sqrt (max (x2 (ix3 (0 : Fin 1) p (0 : Fin 1)) + x3 (ix3 (0 : Fin 1) (0 : Fin 1) q)
                - Ideal.ofBits .f32 0x40000000#32 * ∑ k : Fin 128, x0 (ix3 (0 : Fin 1) p k) * x1 (ix3 (0 : Fin 1) q k))
              (Ideal.ofBits .f32 0x00000000#32))) := by
  unfold k0_pay7
  refine (divf_apply _ _ _).trans ?_
  refine congrArg₂ Ideal.div rfl ?_
  refine (addf_apply _ _ _).trans ?_
  refine congrArg₂ (· + ·) rfl ?_
  refine (sqrt_apply _ _).trans (congrArg Ideal.sqrt ?_)
  refine (maximumf_apply _ _ _).trans ?_
  refine congrArg₂ max ?_ rfl
  refine (subf_apply _ _ _).trans ?_
  refine congrArg₂ (· - ·) ?_ ?_
  · refine (addf_apply _ _ _).trans ?_
    refine congrArg₂ (· + ·) ?_ ?_
    · refine (broadcastTo_a1_ab_apply _ _ p q).trans ?_
      unfold k0_pay3
      exact shapeCast_1ab_ab_apply x2 _ p 0
    · refine (broadcastTo_1b_ab_apply _ _ p q).trans ?_
      unfold k0_pay4
      exact shapeCast_1ab_ab_apply x3 _ 0 q
  · refine (mulf_apply _ _ _).trans ?_
    exact congrArg₂ (· * ·) rfl (dots_apply x0 x1 p q)

end Cert.KernelIdeal.Body

end
-- ==== Proof.KernelBlocks.lean ====
/-
  From blocks to arrays: what the kernel's two output arrays hold after the launch.
  The grid has 4 × 8 points. At point (b, i) the body is given source rows 256·i … 256·i + 255 of batch b, all 2048
  target rows of batch b, those source rows' sums of squares and the batch's target sums of squares (both computed by
  the host before the launch: a sum over the last axis of the entrywise squares), and writes back rows 256·i … 256·i + 255
  of batch b of each output. So entry (p, q) of the block written at (b, i) is the specification's entry
  (b, 256·i + p, q), and since the 32 blocks tile each output array, each array IS the specification's function.
-/
import proofs.«173518_j21199958573323_1_alg».proof.Proof.Gen.KernelIdeal.Frame
import proofs.«173518_j21199958573323_1_alg».proof.Proof.BodyValue
import proofs.«173518_j21199958573323_1_alg».proof.Proof.SimSpec

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.ValueIdx Cert.Sim
open Idealize.ShloMosaic.Pipeline (Dat)

variable (m : (ℓ : Loc nD τ sig) → Buf (Elt Ideal) ℓ)

/-! ## What the host left for the launch -/

/-- The array of source sums of squares the launch finds: the host's row sums of the squares, with a trailing unit axis. -/
theorem V_srcSq (c : Dev nD) :
    (V m c main_v2 : S4x2048x1.Idx → EReal)
      = broadcastInDim S4x2048x1 ![0, 1] bcast_S4x2048_S4x2048x1_0_1
          (Host.reduceAdd (F := Ideal) (mulf (F := Ideal) (m ((c : Thread nD τ).loc main_arg0)) (m ((c : Thread nD τ).loc main_arg0)))
            (constant (F := Ideal) S_ .f32 0x00000000#32) reducesTo_S4x2048x128_S4x2048_d2 h_S_) := by
  show StableHlo.after hostOps0 (fun b => m (c, b)) (Proc.devRef .tc main_v2) = _
  after_results

/-- The array of target sums of squares the launch finds: the host's row sums of the squares, with a unit axis in the middle. -/
theorem V_tgtSq (c : Dev nD) :
    (V m c main_v5 : S4x1x2048.Idx → EReal)
      = broadcastInDim S4x1x2048 ![0, 2] bcast_S4x2048_S4x1x2048_0_2
          (Host.reduceAdd (F := Ideal) (mulf (F := Ideal) (m ((c : Thread nD τ).loc main_arg1)) (m ((c : Thread nD τ).loc main_arg1)))
            (constant (F := Ideal) S_ .f32 0x00000000#32) reducesTo_S4x2048x128_S4x2048_d2 h_S_) := by
  show StableHlo.after hostOps0 (fun b => m (c, b)) (Proc.devRef .tc main_v5) = _
  after_results

/-- Read at (b, n, 0): source row (b, n)'s sum of squares. -/
theorem V_srcSq_apply (c : Dev nD) (b : Fin 4) (n : Fin 2048) :
    (V m c main_v2 : S4x2048x1.Idx → EReal) (ix3 b n (0 : Fin 1)) = sumSq (m ((c : Thread nD τ).loc main_arg0)) b n := by
  rw [V_srcSq]
  refine (broadcastInDim_apply _ bcast_S4x2048_S4x2048x1_0_1 _ (ix3 b n (0 : Fin 1)) (ix2 b n) (fun a => match a with
    | ⟨0, _⟩ => by show b.val = if (4 : Nat) = 1 then 0 else b.val; rw [if_neg (by decide)]
    | ⟨1, _⟩ => by show n.val = if (2048 : Nat) = 1 then 0 else n.val; rw [if_neg (by decide)])).trans ?_
  exact rowSums_apply _ _ _ b n

/-- Read at (b, 0, q): target row (b, q)'s sum of squares. -/
theorem V_tgtSq_apply (c : Dev nD) (b : Fin 4) (q : Fin 2048) :
    (V m c main_v5 : S4x1x2048.Idx → EReal) (ix3 b (0 : Fin 1) q) = sumSq (m ((c : Thread nD τ).loc main_arg1)) b q := by
  rw [V_tgtSq]
  refine (broadcastInDim_apply _ bcast_S4x2048_S4x1x2048_0_2 _ (ix3 b (0 : Fin 1) q) (ix2 b q) (fun a => match a with
    | ⟨0, _⟩ => by show b.val = if (4 : Nat) = 1 then 0 else b.val; rw [if_neg (by decide)]
    | ⟨1, _⟩ => by show q.val = if (2048 : Nat) = 1 then 0 else q.val; rw [if_neg (by decide)])).trans ?_
  exact rowSums_apply _ _ _ b q

/-! ## One entry of a block, from the loaded blocks' entries -/

/-- If the loaded blocks hold, at the places the body reads for entry (p, q), row (B, N) of `s`, row (B, M) of `t` and
    those two rows' sums of squares, the cosine value is the specification's at (B, N, M). -/
theorem cos_entry (s t : Arg.Idx → EReal) (x0 : FVec Ideal S1x256x128 .f32) (x1 : FVec Ideal S1x2048x128 .f32)
    (x2 : FVec Ideal S1x256x1 .f32) (x3 : FVec Ideal S1x1x2048 .f32) (B : Fin 4) (N M : Fin 2048) (p : Fin 256) (q : Fin 2048)
    (h0 : ∀ k : Fin 128, x0 (ix3 (0 : Fin 1) p k) = s (ix3 B N k))
    (h1 : ∀ k : Fin 128, x1 (ix3 (0 : Fin 1) q k) = t (ix3 B M k))
    (h2 : x2 (ix3 (0 : Fin 1) p (0 : Fin 1)) = sumSq s B N)
    (h3 : x3 (ix3 (0 : Fin 1) (0 : Fin 1) q) = sumSq t B M) :
    k0_pay6 (F := Ideal) x0 x1 x2 x3 (ix2 p q) = cosAt s t B N M := by
  rw [cos_apply, h2, h3]
  unfold cosAt rowDot rowNorm eps
  simp only [h0, h1]

/-- The same for the distance value. -/
theorem dist_entry (s t : Arg.Idx → EReal) (x0 : FVec Ideal S1x256x128 .f32) (x1 : FVec Ideal S1x2048x128 .f32)
    (x2 : FVec Ideal S1x256x1 .f32) (x3 : FVec Ideal S1x1x2048 .f32) (B : Fin 4) (N M : Fin 2048) (p : Fin 256) (q : Fin 2048)
    (h0 : ∀ k : Fin 128, x0 (ix3 (0 : Fin 1) p k) = s (ix3 B N k))
    (h1 : ∀ k : Fin 128, x1 (ix3 (0 : Fin 1) q k) = t (ix3 B M k))
    (h2 : x2 (ix3 (0 : Fin 1) p (0 : Fin 1)) = sumSq s B N)
    (h3 : x3 (ix3 (0 : Fin 1) (0 : Fin 1) q) = sumSq t B M) :
    k0_pay7 (F := Ideal) x0 x1 x2 x3 (ix2 p q) = distAt s t B N M := by
  rw [dist_apply, h2, h3]
  unfold distAt rowDot
  simp only [h0, h1]

/-! ## The index maps, decided over the 32 points -/

theorem hz : (![0, 0, 0] : Fin 3 → Nat) = fun _ => 0 := funext fun a => by fin_cases a <;> rfl

/-- Source and source-squares blocks move with the output block on the batch and row-block axes; target and
    target-squares blocks move with it on the batch axis only; every block index on the last axis is 0; the second
    output's block is the first's. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = win0_4.index t (1 : Fin 3) ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (2 : Fin 3) = 0 ∧ win0_4.index t (0 : Fin 3) < 4 ∧ win0_4.index t (1 : Fin 3) < 8
    ∧ win0_5.index t (0 : Fin 3) = win0_4.index t (0 : Fin 3) ∧ win0_5.index t (1 : Fin 3) = win0_4.index t (1 : Fin 3) ∧ win0_5.index t (2 : Fin 3) = 0 :=
  (by decide +kernel : ∀ t : Fin grid0.N, _)

/-- Every (batch, row-block) pair is some point's output block index, for both outputs. -/
theorem idx_onto : ∀ (q0 : Fin 4) (q1 : Fin 8), ∃ t : Fin cfg0.N,
    win0_4.index t = ![q0.val, q1.val, 0] ∧ win0_5.index t = ![q0.val, q1.val, 0] :=
  (by decide +kernel : ∀ (q0 : Fin 4) (q1 : Fin 8), ∃ t : Fin grid0.N,
    win0_4.index t = ![q0.val, q1.val, 0] ∧ win0_5.index t = ![q0.val, q1.val, 0])

/-! ## What a point writes back -/

/-- THE BLOCK READS at point `t` for entry (p, q) of the output block, whose place in the arrays is batch `B`, source row
    `N` (the block's row offset plus `p`) and target row `q`: the source block holds row (B, N) of the first argument, the
    target block row (B, q) of the second, and the two blocks of sums of squares those rows' sums of squares. Each read
    is located by the decided relations between the index maps: a block's coordinate is index × size + the coordinate
    inside the block. -/
theorem reads (c : Dev nD) (t : Fin cfg0.N) (B : Fin 4) (N : Fin 2048) (p : Fin 256) (q : Fin 2048)
    (hB : B.val = win0_4.index t (0 : Fin 3)) (hN : N.val = win0_4.index t (1 : Fin 3) * 256 + p.val) :
    (∀ k : Fin 128, iblk m c 0 t (ix3 (0 : Fin 1) p k) = (m ((c : Thread nD τ).loc main_arg0)) (ix3 B N k))
    ∧ (∀ k : Fin 128, iblk m c 1 t (ix3 (0 : Fin 1) q k) = (m ((c : Thread nD τ).loc main_arg1)) (ix3 B q k))
    ∧ iblk m c 2 t (ix3 (0 : Fin 1) p (0 : Fin 1)) = sumSq (m ((c : Thread nD τ).loc main_arg0)) B N
    ∧ iblk m c 3 t (ix3 (0 : Fin 1) (0 : Fin 1) q) = sumSq (m ((c : Thread nD τ).loc main_arg1)) B q := by
  obtain ⟨e00, e01, e02, e10, e11, e12, e20, e21, e22, e30, e31, e32, -, -, -, -, -, -⟩ := idx_facts t
  refine ⟨fun k => ?_, fun k => ?_, ?_, ?_⟩
  · show V m c main_arg0 (((cfg0.win 0).blk t).view.emb (ix3 (0 : Fin 1) p k)) = _
    refine (congrFun (V_main_arg0 m c) _).trans ?_
    refine congrArg (m ((c : Thread nD τ).loc main_arg0)) ?_
    funext a; apply Fin.ext
    match a with
    | ⟨0, _⟩ => show win0_0.index t (0 : Fin 3) * 1 + 1 * 0 = B.val; omega
    | ⟨1, _⟩ => show win0_0.index t (1 : Fin 3) * 256 + 1 * p.val = N.val; omega
    | ⟨2, _⟩ => show win0_0.index t (2 : Fin 3) * 128 + 1 * k.val = k.val; omega
  · show V m c main_arg1 (((cfg0.win 1).blk t).view.emb (ix3 (0 : Fin 1) q k)) = _
    refine (congrFun (V_main_arg1 m c) _).trans ?_
    refine congrArg (m ((c : Thread nD τ).loc main_arg1)) ?_
    funext a; apply Fin.ext
    match a with
    | ⟨0, _⟩ => show win0_1.index t (0 : Fin 3) * 1 + 1 * 0 = B.val; omega
    | ⟨1, _⟩ => show win0_1.index t (1 : Fin 3) * 2048 + 1 * q.val = q.val; omega
    | ⟨2, _⟩ => show win0_1.index t (2 : Fin 3) * 128 + 1 * k.val = k.val; omega
  · show V m c main_v2 (((cfg0.win 2).blk t).view.emb (ix3 (0 : Fin 1) p (0 : Fin 1))) = _
    have e : ((cfg0.win 2).blk t).view.emb (ix3 (0 : Fin 1) p (0 : Fin 1)) = ix3 B N (0 : Fin 1) := by
      funext a; apply Fin.ext
      match a with
      | ⟨0, _⟩ => show win0_2.index t (0 : Fin 3) * 1 + 1 * 0 = B.val; omega
      | ⟨1, _⟩ => show win0_2.index t (1 : Fin 3) * 256 + 1 * p.val = N.val; omega
      | ⟨2, _⟩ => show win0_2.index t (2 : Fin 3) * 1 + 1 * 0 = 0; omega
    exact (congrArg (V m c main_v2 : S4x2048x1.Idx → EReal) e).trans (V_srcSq_apply m c B N)
  · show V m c main_v5 (((cfg0.win 3).blk t).view.emb (ix3 (0 : Fin 1) (0 : Fin 1) q)) = _
    have e : ((cfg0.win 3).blk t).view.emb (ix3 (0 : Fin 1) (0 : Fin 1) q) = ix3 B (0 : Fin 1) q := by
      funext a; apply Fin.ext
      match a with
      | ⟨0, _⟩ => show win0_3.index t (0 : Fin 3) * 1 + 1 * 0 = B.val; omega
      | ⟨1, _⟩ => show win0_3.index t (1 : Fin 3) * 1 + 1 * 0 = 0; omega
      | ⟨2, _⟩ => show win0_3.index t (2 : Fin 3) * 2048 + 1 * q.val = q.val; omega
    exact (congrArg (V m c main_v5 : S4x1x2048.Idx → EReal) e).trans (V_tgtSq_apply m c B q)

/-- Point `t` writes back, to the first output, block `t` of the cosine array of the two arguments. -/
theorem flushed_cos (c : Dev nD) (t : Fin cfg0.N) :
    (dats m 0 c).flushed 4 t = ((cfg0.win 4).blk t).view.read (Elt Ideal) (cosine (m ((c : Thread nD τ).loc main_arg0)) (m ((c : Thread nD τ).loc main_arg1))) := by
  show (cfg0.win 4).cut (grid0.coords t) ((dats m 0 c).after 4 t) = _
  rw [after0_4]
  unfold out0_4
  rw [View.canon_unit_zero hz]
  simp only [View.ld_unit_zero (S := S1x256x128) hz, View.ld_unit_zero (S := S1x2048x128) hz,
    View.ld_unit_zero (S := S1x256x1) hz, View.ld_unit_zero (S := S1x1x2048) hz]
  funext y
  obtain ⟨u, p, q, rfl⟩ : ∃ (u : Fin 1) (p : Fin 256) (q : Fin 2048), y = ix3 u p q := ⟨y 0, y 1, y 2, eq_ix3 y⟩
  obtain ⟨-, -, -, -, -, -, -, -, -, -, -, -, e42, b40, b41, e50, e51, e52⟩ := idx_facts t
  have hu : u.val = 0 := by have := u.isLt; omega
  have hp : p.val < 256 := p.isLt
  show k0_pay1 (k0_pay6 (iblk m c 0 t) (iblk m c 1 t) (iblk m c 2 t) (iblk m c 3 t)) (ix3 u p q)
      = cosine (m ((c : Thread nD τ).loc main_arg0)) (m ((c : Thread nD τ).loc main_arg1)) (((cfg0.win 4).blk t).view.emb (ix3 u p q))
  unfold k0_pay1
  refine (shapeCast_ab_1ab_apply _ _ u p q).trans ?_
  have epos : ((cfg0.win 4).blk t).view.emb (ix3 u p q)
      = ix3 (⟨win0_4.index t (0 : Fin 3), b40⟩ : Fin 4) (⟨win0_4.index t (1 : Fin 3) * 256 + p.val, by omega⟩ : Fin 2048) q := by
    funext a; apply Fin.ext
    match a with
    | ⟨0, _⟩ => show win0_4.index t (0 : Fin 3) * 1 + 1 * u.val = win0_4.index t (0 : Fin 3); omega
    | ⟨1, _⟩ => show win0_4.index t (1 : Fin 3) * 256 + 1 * p.val = win0_4.index t (1 : Fin 3) * 256 + p.val; omega
    | ⟨2, _⟩ => show win0_4.index t (2 : Fin 3) * 2048 + 1 * q.val = q.val; omega
  rw [epos]
  obtain ⟨h0, h1, h2, h3⟩ := reads m c t ⟨win0_4.index t (0 : Fin 3), b40⟩ ⟨win0_4.index t (1 : Fin 3) * 256 + p.val, by omega⟩ p q rfl rfl
  exact cos_entry (m ((c : Thread nD τ).loc main_arg0)) (m ((c : Thread nD τ).loc main_arg1)) (iblk m c 0 t) (iblk m c 1 t) (iblk m c 2 t) (iblk m c 3 t)
    ⟨win0_4.index t (0 : Fin 3), b40⟩ ⟨win0_4.index t (1 : Fin 3) * 256 + p.val, by omega⟩ q p q h0 h1 h2 h3

/-- Point `t` writes back, to the second output, block `t` of the distance array of the two arguments. -/
theorem flushed_dist (c : Dev nD) (t : Fin cfg0.N) :
    (dats m 0 c).flushed 5 t = ((cfg0.win 5).blk t).view.read (Elt Ideal) (distance (m ((c : Thread nD τ).loc main_arg0)) (m ((c : Thread nD τ).loc main_arg1))) := by
  show (cfg0.win 5).cut (grid0.coords t) ((dats m 0 c).after 5 t) = _
  rw [after0_5]
  unfold out0_5
  rw [View.canon_unit_zero hz]
  simp only [View.ld_unit_zero (S := S1x256x128) hz, View.ld_unit_zero (S := S1x2048x128) hz,
    View.ld_unit_zero (S := S1x256x1) hz, View.ld_unit_zero (S := S1x1x2048) hz]
  funext y
  obtain ⟨u, p, q, rfl⟩ : ∃ (u : Fin 1) (p : Fin 256) (q : Fin 2048), y = ix3 u p q := ⟨y 0, y 1, y 2, eq_ix3 y⟩
  obtain ⟨-, -, -, -, -, -, -, -, -, -, -, -, e42, b40, b41, e50, e51, e52⟩ := idx_facts t
  have hu : u.val = 0 := by have := u.isLt; omega
  have hp : p.val < 256 := p.isLt
  show k0_pay2 (k0_pay7 (iblk m c 0 t) (iblk m c 1 t) (iblk m c 2 t) (iblk m c 3 t)) (ix3 u p q)
      = distance (m ((c : Thread nD τ).loc main_arg0)) (m ((c : Thread nD τ).loc main_arg1)) (((cfg0.win 5).blk t).view.emb (ix3 u p q))
  unfold k0_pay2
  refine (shapeCast_ab_1ab_apply _ _ u p q).trans ?_
  have epos : ((cfg0.win 5).blk t).view.emb (ix3 u p q)
      = ix3 (⟨win0_4.index t (0 : Fin 3), b40⟩ : Fin 4) (⟨win0_4.index t (1 : Fin 3) * 256 + p.val, by omega⟩ : Fin 2048) q := by
    funext a; apply Fin.ext
    match a with
    | ⟨0, _⟩ => show win0_5.index t (0 : Fin 3) * 1 + 1 * u.val = win0_4.index t (0 : Fin 3); omega
    | ⟨1, _⟩ => show win0_5.index t (1 : Fin 3) * 256 + 1 * p.val = win0_4.index t (1 : Fin 3) * 256 + p.val; omega
    | ⟨2, _⟩ => show win0_5.index t (2 : Fin 3) * 2048 + 1 * q.val = q.val; omega
  rw [epos]
  obtain ⟨h0, h1, h2, h3⟩ := reads m c t ⟨win0_4.index t (0 : Fin 3), b40⟩ ⟨win0_4.index t (1 : Fin 3) * 256 + p.val, by omega⟩ p q rfl rfl
  exact dist_entry (m ((c : Thread nD τ).loc main_arg0)) (m ((c : Thread nD τ).loc main_arg1)) (iblk m c 0 t) (iblk m c 1 t) (iblk m c 2 t) (iblk m c 3 t)
    ⟨win0_4.index t (0 : Fin 3), b40⟩ ⟨win0_4.index t (1 : Fin 3) * 256 + p.val, by omega⟩ q p q h0 h1 h2 h3

/-! ## The blocks tile each output array -/

/-- An index of the array is in point `t`'s block iff each coordinate is in the block's range on its axis. -/
theorem mem_blk4 (t : Fin cfg0.N) (i : S4x2048x2048.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v6_0).slice (win0_4.rect t)).set ↔ _
  rw [View.set_slice_whole, Rect.mem_set_unit]
  exact Iff.rfl

theorem mem_blk5 (t : Fin cfg0.N) (i : S4x2048x2048.Idx) :
    i ∈ ((cfg0.win 5).blk t).view.set ↔ ∀ a : Fin 3, win0_5.index t a * S1x256x2048.size a ≤ (i a).val ∧ (i a).val < win0_5.index t a * S1x256x2048.size a + S1x256x2048.size a := by
  show i ∈ ((View.whole main_v6_1).slice (win0_5.rect t)).set ↔ _
  rw [View.set_slice_whole, Rect.mem_set_unit]
  exact Iff.rfl

/-- Every index is in the block of the point with its batch and its row's block of 256. -/
theorem cover4 (i : S4x2048x2048.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 2048 := (i 2).isLt
  obtain ⟨t, ht4, ht5⟩ := idx_onto ⟨(i 0).val, hi0⟩ ⟨(i 1).val / 256, by omega⟩
  have q0 : win0_4.index t (0 : Fin 3) = (i 0).val := congrFun ht4 0
  have q1 : win0_4.index t (1 : Fin 3) = (i 1).val / 256 := congrFun ht4 1
  have q2 : win0_4.index t (2 : Fin 3) = 0 := congrFun ht4 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

theorem cover5 (i : S4x2048x2048.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 2048 := (i 2).isLt
  obtain ⟨t, ht4, ht5⟩ := idx_onto ⟨(i 0).val, hi0⟩ ⟨(i 1).val / 256, by omega⟩
  have q0 : win0_5.index t (0 : Fin 3) = (i 0).val := congrFun ht5 0
  have q1 : win0_5.index t (1 : Fin 3) = (i 1).val / 256 := congrFun ht5 1
  have q2 : win0_5.index t (2 : Fin 3) = 0 := congrFun ht5 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

/-! ## The two arrays after the launch -/

/-- The first output array ends holding the cosine array of the two arguments. -/
theorem final_cos (c : Dev nD) : (dats m 0 c).arrAt 4 cfg0.N = cosine (m ((c : Thread nD τ).loc main_arg0)) (m ((c : Thread nD τ).loc main_arg1)) :=
  (dats m 0 c).arrAt_eq_of_cover 4 (cosine (m ((c : Thread nD τ).loc main_arg0)) (m ((c : Thread nD τ).loc main_arg1))) (fun t _ => flushed_cos m c t) cover4

/-- The second output array ends holding the distance array of the two arguments. -/
theorem final_dist (c : Dev nD) : (dats m 0 c).arrAt 5 cfg0.N = distance (m ((c : Thread nD τ).loc main_arg0)) (m ((c : Thread nD τ).loc main_arg1)) :=
  (dats m 0 c).arrAt_eq_of_cover 5 (distance (m ((c : Thread nD τ).loc main_arg0)) (m ((c : Thread nD τ).loc main_arg1))) (fun t _ => flushed_dist m c t) cover5

end Cert.KernelIdeal.Blocks

end
-- ==== Proof.KernelRun.lean ====
/-
  The kernel program's run, with its result named.
  After the launch the host gives each of the two output arrays a trailing unit axis and joins them on it. The launch
  leaves the two arrays at the cosine and the distance arrays of the two arguments, so the program's result is those two
  stacked, and its arguments are as they were.
-/
import proofs.«173518_j21199958573323_1_alg».proof.Proof.KernelBlocks

noncomputable section

namespace Cert.KernelIdeal.Run

open Cert.KernelIdeal Cert.KernelIdeal.Gen Cert.KernelIdeal.Blocks Idealize.ShloMosaic Idealize.ShloMosaic.TcCoe Idealize.SL.Sem
open Idealize.ShloMosaic.ValueIdx Cert.Sim
open Idealize.ShloMosaic.Pipeline (Dat)

variable (m : (ℓ : Loc nD τ sig) → Buf (Elt Ideal) ℓ) (ρ : Dev nD → PrngReg)

/-- The program's result buffer is written by the host after the launch: it is no window's array. -/
theorem result_rest : main_v9 ∈ Pipeline.restRefs sig cfg0.spec :=
  Pipeline.mem_restRefs_of main_v9 (by decide) (by decide)

/-- What the host's last three lines leave in the result buffer: the two output arrays, stacked. -/
theorem tail_eq (c : Dev nD) :
    Pipeline.afterTail₀ cfgs (dats m) 0 (V0 m) [hostOps1] c main_v9
      = stack bcast_S4x2048x2048_S4x2048x2048x1_0_1_2 concatenates_S4x2048x2048x1_S4x2048x2048x1_S4x2048x2048x2_d3 ((dats m 0 c).arrAt 4 cfg0.N) ((dats m 0 c).arrAt 5 cfg0.N) := by
  unfold Pipeline.afterTail₀
  show StableHlo.after hostOps1 _ (Proc.devRef .tc main_v9) = _
  after_results
  have e4 : Pipeline.withArrays (cfgs 0).spec c (V0 m c) (fun w => (dats m 0 c).arrAt w (cfgs 0).N) (Proc.devRef .tc main_v6_0)
      = (dats m 0 c).arrAt 4 cfg0.N :=
    Pipeline.withArrays_arr spec0 launch0.win.arr_inj c (V0 m c) (fun w => (dats m 0 c).arrAt w cfg0.N) 4
  have e5 : Pipeline.withArrays (cfgs 0).spec c (V0 m c) (fun w => (dats m 0 c).arrAt w (cfgs 0).N) (Proc.devRef .tc main_v6_1)
      = (dats m 0 c).arrAt 5 cfg0.N :=
    Pipeline.withArrays_arr spec0 launch0.win.arr_inj c (V0 m c) (fun w => (dats m 0 c).arrAt w cfg0.N) 5
  rw [e4, e5]
  rfl

/-- THE RUN: every weakly fair execution of the kernel program terminates with its result at the cosine and distance
    arrays of its two arguments, stacked, and the arguments unchanged. -/
theorem run : θ_run defs (onTc (τ := τ) (main (F := Ideal))) ⟨m, fun _ => 0, ρ⟩ fun r => ∀ c : Dev nD,
      r.2.mem ((c : Thread nD τ).loc main_v9)
        = stack bcast_S4x2048x2048_S4x2048x2048x1_0_1_2 concatenates_S4x2048x2048x1_S4x2048x2048x1_S4x2048x2048x2_d3 (cosine (m ((c : Thread nD τ).loc main_arg0)) (m ((c : Thread nD τ).loc main_arg1))) (distance (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v9 result_rest).trans ((tail_eq m c).trans (by rw [final_cos, final_dist])),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Run

end
-- ==== Proof.RefValue.lean ====
/-
  The reference, stage by stage, is the specification's functions of its two arguments.
  Its first result stage (the rowDot product of the two arrays after each row has been divided by its clamped rowNorm) is,
  at entry (b, n, m), `cosNormalizedAt`; its second (one over one plus the root of the clamped squared distance) is
  `distAt`; and its last line stacks the two. Every step here is reading a stage at an entry: a row sum is the initial
  zero plus the sum over the row, a broadcast reads its operand at the kept coordinates, the product of two arrays
  contracted over the last axis is the sum over that axis.
-/
import proofs.«173518_j21199958573323_1_alg».proof.Proof.RefReadPatched
import proofs.«173518_j21199958573323_1_alg».proof.Proof.SimSpec

noncomputable section

namespace Cert.ReferenceIdeal.RefValue

open Cert.ReferenceIdeal Cert.ReferenceIdeal.Gen Cert.ReferenceIdeal.ReadP Idealize.ShloMosaic Idealize.ShloMosaic.ValueIdx Cert.Sim

/-- Source rows' sums of squares. -/
theorem sumSq_src (x0 : (⟨S4x2048x128, .f32⟩ : BufTy).Contents (Elt Ideal)) (b : Fin 4) (n : Fin 2048) :
    val_main_v1 (F := Ideal) x0 (ix2 b n) = sumSq x0 b n := by
  rw [val_main_v1_apply]
  unfold sumSq
  refine congrArg₂ (· + ·) rfl (Finset.sum_congr rfl fun k _ => ?_)
  have e : idx_main_v1 (ix2 b n) k = ix3 b n k :=
    funext fun a => Fin.ext (by match a with | ⟨0, _⟩ => rfl | ⟨1, _⟩ => rfl | ⟨2, _⟩ => rfl)
  rw [e, val_main_v0_apply]
  rfl

/-- Target rows' sums of squares. -/
theorem sumSq_tgt (x1 : (⟨S4x2048x128, .f32⟩ : BufTy).Contents (Elt Ideal)) (b : Fin 4) (m : Fin 2048) :
    val_main_v3 (F := Ideal) x1 (ix2 b m) = sumSq x1 b m := by
  rw [val_main_v3_apply]
  unfold sumSq
  refine congrArg₂ (· + ·) rfl (Finset.sum_congr rfl fun k _ => ?_)
  have e : idx_main_v3 (ix2 b m) k = ix3 b m k :=
    funext fun a => Fin.ext (by match a with | ⟨0, _⟩ => rfl | ⟨1, _⟩ => rfl | ⟨2, _⟩ => rfl)
  rw [e, val_main_v2_apply]
  rfl

/-- Source rows' clamped norms. -/
theorem rowNorm_src (x0 : (⟨S4x2048x128, .f32⟩ : BufTy).Contents (Elt Ideal)) (b : Fin 4) (n : Fin 2048) :
    val_main_v6 (F := Ideal) x0 (ix2 b n) = rowNorm x0 b n := by
  rw [val_main_v6_apply, val_main_v4_apply, val_main_v5_apply, val_main_cst_1_apply, sumSq_src]
  rfl

/-- Target rows' clamped norms. -/
theorem rowNorm_tgt (x1 : (⟨S4x2048x128, .f32⟩ : BufTy).Contents (Elt Ideal)) (b : Fin 4) (m : Fin 2048) :
    val_main_v12 (F := Ideal) x1 (ix2 b m) = rowNorm x1 b m := by
  rw [val_main_v12_apply, val_main_v10_apply, val_main_v11_apply, val_main_cst_2_apply, sumSq_tgt]
  rfl

/-- A normalized source entry. -/
theorem normalized_src (x0 : (⟨S4x2048x128, .f32⟩ : BufTy).Contents (Elt Ideal)) (b : Fin 4) (n : Fin 2048) (k : Fin 128) :
    val_main_v9 (F := Ideal) x0 (ix3 b n k) = Ideal.div (x0 (ix3 b n k)) (rowNorm x0 b n) := by
  rw [val_main_v9_apply, val_main_v8_apply, val_main_v7_apply]
  have e : idx_main_v7 (idx_main_v8 (ix3 b n k)) = ix2 b n :=
    funext fun a => Fin.ext (by match a with | ⟨0, _⟩ => rfl | ⟨1, _⟩ => rfl)
  rw [e, rowNorm_src]
  rfl

/-- A normalized target entry. -/
theorem normalized_tgt (x1 : (⟨S4x2048x128, .f32⟩ : BufTy).Contents (Elt Ideal)) (b : Fin 4) (m : Fin 2048) (k : Fin 128) :
    val_main_v15 (F := Ideal) x1 (ix3 b m k) = Ideal.div (x1 (ix3 b m k)) (rowNorm x1 b m) := by
  rw [val_main_v15_apply, val_main_v14_apply, val_main_v13_apply]
  have e : idx_main_v13 (idx_main_v14 (ix3 b m k)) = ix2 b m :=
    funext fun a => Fin.ext (by match a with | ⟨0, _⟩ => rfl | ⟨1, _⟩ => rfl)
  rw [e, rowNorm_tgt]
  rfl

/-- The first result stage at an entry: the rowDot product of the normalized rows. -/
theorem cos_stage_apply (x0 x1 : (⟨S4x2048x128, .f32⟩ : BufTy).Contents (Elt Ideal)) (b : Fin 4) (n m : Fin 2048) :
    val_main_v16 (F := Ideal) x0 x1 (ix3 b n m) = cosNormalizedAt x0 x1 b n m := by
  rw [val_main_v16_apply]
  unfold cosNormalizedAt
  refine Finset.sum_congr rfl fun k _ => ?_
  have el : lidx_main_v16 (ix3 b n m) k = ix3 b n k :=
    funext fun a => Fin.ext (by match a with | ⟨0, _⟩ => rfl | ⟨1, _⟩ => rfl | ⟨2, _⟩ => rfl)
  have er : ridx_main_v16 (ix3 b n m) k = ix3 b m k :=
    funext fun a => Fin.ext (by match a with | ⟨0, _⟩ => rfl | ⟨1, _⟩ => rfl | ⟨2, _⟩ => rfl)
  rw [el, er, normalized_src, normalized_tgt]

/-- The plain rowDot product at an entry. -/
theorem rowDot_stage_apply (x0 x1 : (⟨S4x2048x128, .f32⟩ : BufTy).Contents (Elt Ideal)) (b : Fin 4) (n m : Fin 2048) :
    val_main_v17 (F := Ideal) x0 x1 (ix3 b n m) = rowDot x0 x1 b n m := by
  rw [val_main_v17_apply]
  unfold rowDot
  refine Finset.sum_congr rfl fun k _ => ?_
  have el : lidx_main_v17 (ix3 b n m) k = ix3 b n k :=
    funext fun a => Fin.ext (by match a with | ⟨0, _⟩ => rfl | ⟨1, _⟩ => rfl | ⟨2, _⟩ => rfl)
  have er : ridx_main_v17 (ix3 b n m) k = ix3 b m k :=
    funext fun a => Fin.ext (by match a with | ⟨0, _⟩ => rfl | ⟨1, _⟩ => rfl | ⟨2, _⟩ => rfl)
  rw [el, er]

/-- The second result stage at an entry. -/
theorem dist_stage_apply (x0 x1 : (⟨S4x2048x128, .f32⟩ : BufTy).Contents (Elt Ideal)) (b : Fin 4) (n m : Fin 2048) :
    val_main_v32 (F := Ideal) x0 x1 (ix3 b n m) = distAt x0 x1 b n m := by
  rw [val_main_v32_apply, val_main_v31_apply, val_main_cst_6_apply, val_main_v30_apply, val_main_v29_apply,
    val_main_cst_5_apply, val_main_v28_apply, val_main_v27_apply, val_main_v26_apply, val_main_cst_4_apply,
    val_main_v25_apply, val_main_v22_apply, val_main_v20_apply, val_main_v18_apply, val_main_v21_apply,
    val_main_v19_apply, val_main_v24_apply, val_main_v23_apply, val_main_cst_3_apply, rowDot_stage_apply]
  have e0 : idx_main_v18 (idx_main_v20 (ix3 b n m)) = ix2 b n :=
    funext fun a => Fin.ext (by match a with | ⟨0, _⟩ => rfl | ⟨1, _⟩ => rfl)
  have e1 : idx_main_v19 (idx_main_v21 (ix3 b n m)) = ix2 b m :=
    funext fun a => Fin.ext (by match a with | ⟨0, _⟩ => rfl | ⟨1, _⟩ => rfl)
  rw [e0, e1, sumSq_src, sumSq_tgt]
  rfl

/-! ## The whole stages, and the result -/

/-- With real entries the first result stage is the cosine array: entry by entry the inner product of the normalized
    rows, which the law turns into the rows' inner product over the product of the clamped norms. -/
theorem cos_stage_eq (x0 x1 : (⟨S4x2048x128, .f32⟩ : BufTy).Contents (Elt Ideal)) (h0 : RealEntries x0) (h1 : RealEntries x1) :
    val_main_v16 (F := Ideal) x0 x1 = cosine x0 x1 := by
  funext j
  obtain ⟨b, n, mm, rfl⟩ : ∃ (b : Fin 4) (n mm : Fin 2048), j = ix3 b n mm := ⟨j 0, j 1, j 2, eq_ix3 j⟩
  rw [cos_stage_apply]
  exact cosNormalizedAt_eq h0 h1 b n mm

/-- The second result stage is the distance array (no hypothesis: the two programs spell it the same way). -/
theorem dist_stage_eq (x0 x1 : (⟨S4x2048x128, .f32⟩ : BufTy).Contents (Elt Ideal)) :
    val_main_v32 (F := Ideal) x0 x1 = distance x0 x1 := by
  funext j
  obtain ⟨b, n, mm, rfl⟩ : ∃ (b : Fin 4) (n mm : Fin 2048), j = ix3 b n mm := ⟨j 0, j 1, j 2, eq_ix3 j⟩
  exact dist_stage_apply x0 x1 b n mm

/-- The reference's last line stacks its two result stages. -/
theorem result_eq_stack (x0 x1 : (⟨S4x2048x128, .f32⟩ : BufTy).Contents (Elt Ideal)) :
    val_main_v35 (F := Ideal) x0 x1
      = stack bcast_S4x2048x2048_S4x2048x2048x1_0_1_2 concatenates_S4x2048x2048x1_S4x2048x2048x1_S4x2048x2048x2_d3 (val_main_v16 (F := Ideal) x0 x1) (val_main_v32 (F := Ideal) x0 x1) := rfl

/-- THE REFERENCE'S RESULT, with real entries: the cosine and distance arrays of its two arguments, stacked. -/
theorem result_eq (x0 x1 : (⟨S4x2048x128, .f32⟩ : BufTy).Contents (Elt Ideal)) (h0 : RealEntries x0) (h1 : RealEntries x1) :
    val_main_v35 (F := Ideal) x0 x1 = stack bcast_S4x2048x2048_S4x2048x2048x1_0_1_2 concatenates_S4x2048x2048x1_S4x2048x2048x1_S4x2048x2048x2_d3 (cosine x0 x1) (distance x0 x1) := by
  rw [result_eq_stack, cos_stage_eq x0 x1 h0 h1, dist_stage_eq]

end Cert.ReferenceIdeal.RefValue

end
-- ==== Proof.lean ====
/-
  The certificate: the kernel program and the reference compute the same [4, 2048, 2048, 2] array of extended reals
  from finite inputs — channel 0 the cosine similarity of source row n and target row m of a batch, channel 1 their
  normalized distance 1 / (1 + ‖s − t‖).
  The kernel takes ONE matrix product per block and divides it by the product of the two clamped norms; the reference
  divides every row by its clamped norm first and then takes the product. With every input entry a real number each
  clamped norm is a positive real, division by it is multiplication by a real reciprocal, and the reciprocals move out
  of the 128-term sum: the two cosines agree (SimSpec.lean, the law). The distance is spelt the same way by both. Both
  end by stacking the two arrays on a new last axis.
  The three frames are the generated frame certificates (the reference's is its run with the result dropped); the
  idealization rewrote nothing, so `preserves` is `True`.
-/
import proofs.«173518_j21199958573323_1_alg».proof.Defs
import proofs.«173518_j21199958573323_1_alg».proof.Proof.Gen.Kernel
import proofs.«173518_j21199958573323_1_alg».proof.Proof.Gen.Kernel.Skeleton
import proofs.«173518_j21199958573323_1_alg».proof.Proof.Gen.Kernel.Launch
import proofs.«173518_j21199958573323_1_alg».proof.Proof.Gen.Kernel.Points
import proofs.«173518_j21199958573323_1_alg».proof.Proof.Gen.Kernel.Frame
import proofs.«173518_j21199958573323_1_alg».proof.Proof.Gen.KernelIdeal
import proofs.«173518_j21199958573323_1_alg».proof.Proof.Gen.KernelIdeal.Skeleton
import proofs.«173518_j21199958573323_1_alg».proof.Proof.Gen.KernelIdeal.Launch
import proofs.«173518_j21199958573323_1_alg».proof.Proof.Gen.KernelIdeal.Points
import proofs.«173518_j21199958573323_1_alg».proof.Proof.Gen.KernelIdeal.Frame
import proofs.«173518_j21199958573323_1_alg».proof.Proof.Gen.ReferenceIdeal
import proofs.«173518_j21199958573323_1_alg».proof.Proof.Gen.Pre_finite_inputs
import proofs.«173518_j21199958573323_1_alg».proof.Proof.RefRunPatched
import proofs.«173518_j21199958573323_1_alg».proof.Proof.RefReadPatched
import proofs.«173518_j21199958573323_1_alg».proof.Proof.SimSpec
import proofs.«173518_j21199958573323_1_alg».proof.Proof.RealInputs
import proofs.«173518_j21199958573323_1_alg».proof.Proof.KernelRun
import proofs.«173518_j21199958573323_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs, from memories agreeing on the two arguments, end with the cosine and distance arrays of those
    arguments stacked: the kernel by its run, the reference by its run and the law, which uses that the precondition
    makes every entry a real number. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1⟩ := Cert.Pre_finite_inputs.RealInputs.real_entries _ _ (hpre c)
  rw [Cert.ReferenceIdeal.ReadP.val_main_v35_eq, (hagree c).1, (hagree c).2]
  exact Cert.ReferenceIdeal.RefValue.result_eq _ _ h0 h1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
